-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S16384x2048 .f32) (main_arg1 : FVec F S2048x2048 .f32) (main_arg2 : FVec F S2048 .f32) (main_arg3 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Layer.lean ====
/-
  The masked linear layer, as one function of its four arrays.

  For an activation matrix x [16384, 2048], a weight matrix w [2048, 2048] laid out (output feature, input feature),
  a mask of the same shape and a bias b [2048], the layer's entry at row p and output feature q is

      y(p, q) = (Σ_k x(p, k) · (w(q, k) · mask(q, k))) + b(q),      k over the 2048 input features,

  on the extended reals: the weight is masked entry by entry first, the row of x is contracted against row q of the
  masked weight (both operands are summed along their LAST axis), and the bias of feature q is added to the sum.
-/
import Idealize.ShloMosaic.PureOps.Ideal
import Idealize.ShloMosaic.Lib.ValueIdx

noncomputable section

namespace Cert.MaskedLinear

open Idealize.ShloMosaic Idealize.ShloMosaic.ValueIdx

/-- Entry (p, q) of the layer: row p of x against row q of the masked weight, plus the bias of feature q. -/
def entry (x : (⟨2, ![16384, 2048]⟩ : Shape).Idx → EReal) (w mk : (⟨2, ![2048, 2048]⟩ : Shape).Idx → EReal)
    (b : (⟨1, ![2048]⟩ : Shape).Idx → EReal) (p : Fin 16384) (q : Fin 2048) : EReal :=
  (∑ k : Fin 2048, x (ix2 p k) * (w (ix2 q k) * mk (ix2 q k))) + b (ix1 q)

/-- The layer's whole output array [16384, 2048]. -/
def layer (x : (⟨2, ![16384, 2048]⟩ : Shape).Idx → EReal) (w mk : (⟨2, ![2048, 2048]⟩ : Shape).Idx → EReal)
    (b : (⟨1, ![2048]⟩ : Shape).Idx → EReal) : (⟨2, ![16384, 2048]⟩ : Shape).Idx → EReal :=
  fun i => entry x w mk b (i 0) (i 1)

/-- The output at an index whose two coordinates are known as numbers is the entry at those numbers. -/
theorem layer_apply (x : (⟨2, ![16384, 2048]⟩ : Shape).Idx → EReal) (w mk : (⟨2, ![2048, 2048]⟩ : Shape).Idx → EReal)
    (b : (⟨1, ![2048]⟩ : Shape).Idx → EReal) (i : (⟨2, ![16384, 2048]⟩ : Shape).Idx) (p : Fin 16384) (q : Fin 2048)
    (h0 : (i 0).val = p.val) (h1 : (i 1).val = q.val) : layer x w mk b i = entry x w mk b p q := by
  have e0 : i 0 = p := Fin.ext h0
  have e1 : i 1 = q := Fin.ext h1
  show entry x w mk b (i 0) (i 1) = _
  rw [e0, e1]

end Cert.MaskedLinear

end
-- ==== Proof.TileEntry.lean ====
/-
  One grid point's arithmetic, read at an entry.

  At a grid point the body holds a tile X [512, 2048] of the activations, the whole masked weight W [2048, 2048]
  (rounded to bf16 for the matrix unit, which at the extended reals changes nothing) and the bias as a row B [1, 2048].
  It multiplies X by W contracting the LAST axis of both into a zero accumulator and adds the bias row, repeated over the
  512 rows. So the stored tile's entry at row p and feature q is

      (Σ_k X(p, k) · W(q, k)) + B(0, q).
-/
import proofs.«117531_j30562987278743_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's index of the product at output entry (p, q) and contraction position k is (p, k). -/
theorem lhs_index (p : Fin 512) (q : Fin 2048) (k : Fin 2048) :
    dot_S512x2048_S2048x2048_S512x2048_1_1_0_0_n_n.lhsIdx (ix2 p q)
      ((contrEquiv1 dot_S512x2048_S2048x2048_S512x2048_1_1_0_0_n_n 2048 rfl rfl).symm k) = ix2 p k := by
  have hk := contrEquiv1_symm_val dot_S512x2048_S2048x2048_S512x2048_1_1_0_0_n_n 2048 rfl rfl k
  funext a
  apply Fin.ext
  match a with
  | ⟨0, _⟩ =>
    show (dot_S512x2048_S2048x2048_S512x2048_1_1_0_0_n_n.lhsIdx (ix2 p q) _ 0).val = p.val
    unfold DotDims.lhsIdx
    rw [dif_neg (show ¬(0 : Fin S512x2048.rank) ∈ dot_S512x2048_S2048x2048_S512x2048_1_1_0_0_n_n.lhsBatch by decide),
      dif_pos (show (0 : Fin S512x2048.rank) ∈ dot_S512x2048_S2048x2048_S512x2048_1_1_0_0_n_n.lhsNonContracting by decide)]
    rfl
  | ⟨1, _⟩ =>
    exact (dot_S512x2048_S2048x2048_S512x2048_1_1_0_0_n_n.lhsIdx_val_of_single rfl (ix2 p q) _).trans hk

/-- The right operand's index there is (q, k): the weight is read along ITS last axis too. -/
theorem rhs_index (p : Fin 512) (q : Fin 2048) (k : Fin 2048) :
    dot_S512x2048_S2048x2048_S512x2048_1_1_0_0_n_n.rhsIdx (ix2 p q)
      ((contrEquiv1 dot_S512x2048_S2048x2048_S512x2048_1_1_0_0_n_n 2048 rfl rfl).symm k) = ix2 q k := by
  have hk := contrEquiv1_symm_val dot_S512x2048_S2048x2048_S512x2048_1_1_0_0_n_n 2048 rfl rfl k
  funext a
  apply Fin.ext
  match a with
  | ⟨0, _⟩ =>
    show (dot_S512x2048_S2048x2048_S512x2048_1_1_0_0_n_n.rhsIdx (ix2 p q) _ 0).val = q.val
    unfold DotDims.rhsIdx
    rw [dif_neg (show ¬(0 : Fin S2048x2048.rank) ∈ dot_S512x2048_S2048x2048_S512x2048_1_1_0_0_n_n.rhsBatch by decide),
      dif_pos (show (0 : Fin S2048x2048.rank) ∈ dot_S512x2048_S2048x2048_S512x2048_1_1_0_0_n_n.rhsNonContracting by decide)]
    rfl
  | ⟨1, _⟩ =>
    exact (dot_S512x2048_S2048x2048_S512x2048_1_1_0_0_n_n.rhsIdx_val_of_single rfl (ix2 p q) _).trans hk

/-- The product into the zero accumulator, at entry (p, q): the sum over k of L(p, k) · R(q, k). -/
theorem product_entry (l : FVec Ideal S512x2048 .bf16) (r : FVec Ideal S2048x2048 .bf16) (p : Fin 512) (q : Fin 2048) :
    FloatOps.matmul dot_S512x2048_S2048x2048_S512x2048_1_1_0_0_n_n none l r (constant (F := Ideal) S512x2048 .f32 0x00000000#32) (ix2 p q)
      = ∑ k : Fin 2048, l (ix2 p k) * r (ix2 q k) := by
  rw [Ideal.matmul_constant_zero_apply,
    ← Equiv.sum_comp (contrEquiv1 dot_S512x2048_S2048x2048_S512x2048_1_1_0_0_n_n 2048 rfl rfl).symm]
  refine Finset.sum_congr rfl fun k _ => ?_
  rw [lhs_index, rhs_index]

/-- The stored tile at entry (p, q): the row of X against row q of W, plus the bias row's entry q. -/
theorem tile_entry (x0 : FVec Ideal S512x2048 .f32) (x1 : FVec Ideal S2048x2048 .bf16) (x2 : FVec Ideal S1x2048 .f32)
    (p : Fin 512) (q : Fin 2048) :
    k0_pay1 (F := Ideal) x0 x1 x2 (ix2 p q) = (∑ k : Fin 2048, x0 (ix2 p k) * x1 (ix2 q k)) + x2 (ix2 (0 : Fin 1) q) := by
  unfold k0_pay1
  refine (addf_apply _ _ _).trans ?_
  refine congrArg₂ (· + ·) ?_ ?_
  · refine (product_entry _ _ p q).trans ?_
    refine Finset.sum_congr rfl fun k _ => ?_
    rw [shapeCast_self]
    rfl
  · refine (broadcastTo_1b_ab_apply _ _ p q).trans ?_
    rw [shapeCast_self]

end Cert.KernelIdeal.Tile

end
-- ==== Proof.RegionArrays.lean ====
/-
  What the grid finds in its windows' arrays, and each window's block at a grid point.

  Before the grid starts the host has masked the weight (entry by entry, then rounded to bf16, which at the extended
  reals changes nothing) and viewed the bias [2048] as a row [1, 2048]. The activations are staged as they were launched.
  Grid point t of the 32 sees rows 512·t … 512·t + 511 of the activations, the whole masked weight and the whole bias row.
-/
import proofs.«117531_j30562987278743_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Tile

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The masked weight the grid finds: weight · mask entry by entry, rounded to bf16. -/
theorem masked_weight (c : Dev nD) :
    (V m c main_call0_v1 : S2048x2048.Idx → Elt F .bf16)
      = truncf .bf16 (mulf (m ((c : Thread nD τ).loc main_arg1) : FVec F S2048x2048 .f32) (m ((c : Thread nD τ).loc main_arg3))) bitsLt_bf16_f32 := by
  dsimp only [V, hostOps0]
  after_results
  rfl

/-- The bias row the grid finds: the bias viewed as [1, 2048]. -/
theorem bias_row (c : Dev nD) :
    (V m c main_call0_v2 : S1x2048.Idx → Elt F .f32)
      = shapeCast S1x2048 (m ((c : Thread nD τ).loc main_arg2) : FVec F S2048 .f32) shapeCasts_S2048_S1x2048 := by
  dsimp only [V, hostOps0]
  after_results
  rfl

/-- The windows' block indices over the 32 grid points: the activations and the output move down one tile of rows per
    point; the masked weight and the bias row stay at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activation tile at point t, entry y, is the activations at row 512·t + y₀, column y₁. -/
theorem act_block (c : Dev nD) (t : Fin cfg0.N) (y : S512x2048.Idx) (i : S16384x2048.Idx)
    (h0 : (i 0).val = t.val * 512 + (y 0).val) (h1 : (i 1).val = (y 1).val) :
    (iblk m c 0 t : Vec F S512x2048 .f32) y = (m ((c : Thread nD τ).loc main_arg0) : S16384x2048.Idx → Elt F .f32) i := by
  obtain ⟨e0, e1, -⟩ := index_facts t
  unfold iblk
  rw [View.read_apply]
  show V m c main_arg0 _ = _
  rw [V_main_arg0]
  refine congrArg (m ((c : Thread nD τ).loc main_arg0) : S16384x2048.Idx → Elt F .f32) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- Every point sees the whole masked weight. -/
theorem weight_block (c : Dev nD) (t : Fin cfg0.N) (y : S2048x2048.Idx) :
    (iblk m c 1 t : Vec F S2048x2048 .bf16) y = (V m c main_call0_v1 : S2048x2048.Idx → Elt F .bf16) y := by
  obtain ⟨-, -, e0, e1, -⟩ := index_facts t
  unfold iblk
  rw [View.read_apply]
  show (V m c main_call0_v1 : S2048x2048.Idx → Elt F .bf16) _ = _
  refine congrArg (V m c main_call0_v1 : S2048x2048.Idx → Elt F .bf16) (funext fun a => Fin.ext ?_)
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- Every point sees the whole bias row. -/
theorem bias_block (c : Dev nD) (t : Fin cfg0.N) (y : S1x2048.Idx) :
    (iblk m c 2 t : Vec F S1x2048 .f32) y = (V m c main_call0_v2 : S1x2048.Idx → Elt F .f32) y := by
  obtain ⟨-, -, -, -, e0, e1, -⟩ := index_facts t
  unfold iblk
  rw [View.read_apply]
  show (V m c main_call0_v2 : S1x2048.Idx → Elt F .f32) _ = _
  refine congrArg (V m c main_call0_v2 : S1x2048.Idx → Elt F .f32) (funext fun a => Fin.ext ?_)
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

end Cert.KernelIdeal.Tile

end
-- ==== Proof.KernelLayer.lean ====
/-
  The grid computes the layer, tile by tile.

  Grid point t writes rows 512·t … 512·t + 511 of the output. Its tile's entry (p, q) is the row p of the activation
  tile against row q of the masked weight plus the bias row's entry q; the activation tile's row p is row 512·t + p of
  the activations, the masked weight's entry (q, k) is w(q, k) · mask(q, k), the bias row's entry (0, q) is b(q). So the
  tile is rows 512·t … of the layer, and the 32 tiles cover all 16384 rows: after the run the output array is the layer.
-/
import proofs.«117531_j30562987278743_2_alg».proof.Proof.Gen.KernelIdeal.Value
import proofs.«117531_j30562987278743_2_alg».proof.Proof.Layer
import proofs.«117531_j30562987278743_2_alg».proof.Proof.TileEntry
import proofs.«117531_j30562987278743_2_alg».proof.Proof.RegionArrays

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedLinear

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the four arrays as launched. -/
abbrev result (c : Dev nD) : Buf (Elt Ideal) ((c : Thread nD τ).loc main_v0) :=
  layer (m ((c : Thread nD τ).loc main_arg0)) (m ((c : Thread nD τ).loc main_arg1)) (m ((c : Thread nD τ).loc main_arg3))
    (m ((c : Thread nD τ).loc main_arg2))

/-- What point t writes back is its tile of the layer. -/
theorem flushed_eq (c : Dev nD) (t : Fin cfg0.N) :
    (dats m 0 c).flushed 3 t = ((cfg0.win 3).blk t).view.read (Elt Ideal) (result m c) := by
  have ht : t.val < 32 := lt_of_lt_of_eq t.isLt N_0
  obtain ⟨-, -, -, -, -, -, e0, e1⟩ := index_facts t
  rw [Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  funext j
  obtain ⟨p, q, rfl⟩ : ∃ (p : Fin 512) (q : Fin 2048), j = ix2 p q := ⟨j 0, j 1, eq_ix2 j⟩
  show k0_pay1 (iblk m c 0 t) (iblk m c 1 t) (iblk m c 2 t) (ix2 p q)
    = result m c (((cfg0.win 3).blk t).view.emb (ix2 p q))
  refine (tile_entry (iblk m c 0 t) (iblk m c 1 t) (iblk m c 2 t) p q).trans ?_
  refine Eq.trans ?_ (layer_apply _ _ _ _ _ ⟨t.val * 512 + p.val, by omega⟩ q ?_ ?_).symm
  · unfold Cert.MaskedLinear.entry
    refine congrArg₂ (· + ·) (Finset.sum_congr rfl fun k _ => congrArg₂ (· * ·) ?_ ?_) ?_
    · exact act_block m c t (ix2 p k) (ix2 ⟨t.val * 512 + p.val, by omega⟩ k) rfl rfl
    · rw [weight_block, masked_weight]
      rfl
    · rw [bias_block, bias_row]
      exact shapeCast_a_1a_apply _ _ 0 q
  · show win0_3.index t (0 : Fin 2) * 512 + 1 * p.val = t.val * 512 + p.val
    rw [e0]; omega
  · show win0_3.index t (1 : Fin 2) * 2048 + 1 * q.val = q.val
    rw [e1]; omega

/-- An index is in point t's tile iff each coordinate is in the tile's range on its axis. -/
theorem mem_tile (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- Row r of the output is in the tile of point r / 512. -/
theorem covered (i : S16384x2048.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 2048 := (i 1).isLt
  obtain ⟨t, ht⟩ : ∃ t : Fin cfg0.N, t.val = (i 0).val / 512 := ⟨⟨(i 0).val / 512, by rw [hN]; omega⟩, rfl⟩
  obtain ⟨-, -, -, -, -, -, e0, e1⟩ := index_facts t
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- The output array after the run is the layer. -/
theorem final (c : Dev nD) : (dats m 0 c).arrAt 3 cfg0.N = result m c :=
  (dats m 0 c).arrAt_eq_of_cover 3 (result m c) (fun t _ => flushed_eq m c t) covered

/-- The run: the output ends at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Tile

end
-- ==== Proof.RefLayer.lean ====
/-
  The reference computes the layer.

  The reference masks the weight entry by entry, contracts x's last axis against the masked weight's last axis
  (one dot_general), views the bias as a [1, 2048] row, repeats the row over the 16384 rows and adds. Read at an
  index (p, q) that is (Σ_k x(p, k) · (w(q, k) · mask(q, k))) + b(q): the layer.
-/
import proofs.«117531_j30562987278743_2_alg».proof.Proof.Gen.ReferenceIdeal.Read
import proofs.«117531_j30562987278743_2_alg».proof.Proof.Layer

noncomputable section

namespace Cert.ReferenceIdeal.RefLayer

open Cert.ReferenceIdeal Cert.ReferenceIdeal.Gen Cert.ReferenceIdeal.Read Idealize.ShloMosaic Idealize.ShloMosaic.ValueIdx
open Cert.MaskedLinear

/-- The reference's last stage, as a function of the four arguments, is the layer. -/
theorem result_eq (x0 : FVec Ideal S16384x2048 .f32) (x1 : FVec Ideal S2048x2048 .f32) (x2 : FVec Ideal S2048 .f32)
    (x3 : FVec Ideal S2048x2048 .f32) :
    val_main_v4 (F := Ideal) x0 x1 x2 x3 = layer x0 x1 x3 x2 := by
  funext i
  have el : ∀ k : Fin 2048, lidx_main_v1 i k = ix2 (i 0) k := fun k =>
    funext fun a => Fin.ext (by match a with | ⟨0, _⟩ => rfl | ⟨1, _⟩ => rfl)
  have er : ∀ k : Fin 2048, ridx_main_v1 i k = ix2 (i 1) k := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply, eb]
  simp only [el, er, val_main_v0_apply]
  rfl

end Cert.ReferenceIdeal.RefLayer

end
-- ==== Proof.lean ====
/-
  A masked linear layer: y = x · (w ∘ mask)ᵀ + b, for activations x [16384, 2048], a weight w and a mask [2048, 2048]
  laid out (output feature, input feature), and a bias b [2048].

  The kernel's program masks the weight on the host (entry by entry, then rounded to bf16), views the bias as a row
  [1, 2048], and runs a grid of 32 points: point t multiplies rows 512·t … 512·t + 511 of x (rounded to bf16) by the whole
  masked weight, contracting the last axis of both, into a zero accumulator, adds the bias row to every row of the tile
  and writes the tile back. The reference masks the weight, contracts x against it in one product and adds the bias
  repeated over the rows.

  On the extended reals a change of float format is the identity, so both compute, at row p and feature q,

      (Σ_k x(p, k) · (w(q, k) · mask(q, k))) + b(q)

  — the same products, summed over the same index set, with the same bias added last (Proof/Layer.lean). No law of
  arithmetic beyond 0 + s = s for the zero accumulator is used, so finiteness of the inputs is never needed.
  Proof/TileEntry.lean reads one point's arithmetic at an entry; Proof/RegionArrays.lean reads what each point is given;
  Proof/KernelLayer.lean puts the 32 tiles together; Proof/RefLayer.lean reads the reference's five operations at an entry.
  The idealization rewrote nothing, so that it preserves the kernel is trivially true.
-/
import proofs.«117531_j30562987278743_2_alg».proof.Defs
import proofs.«117531_j30562987278743_2_alg».proof.Proof.Gen.Kernel
import proofs.«117531_j30562987278743_2_alg».proof.Proof.Gen.Kernel.Skeleton
import proofs.«117531_j30562987278743_2_alg».proof.Proof.Gen.Kernel.Launch
import proofs.«117531_j30562987278743_2_alg».proof.Proof.Gen.Kernel.Points
import proofs.«117531_j30562987278743_2_alg».proof.Proof.Gen.Kernel.Frame
import proofs.«117531_j30562987278743_2_alg».proof.Proof.Gen.KernelIdeal
import proofs.«117531_j30562987278743_2_alg».proof.Proof.Gen.KernelIdeal.Skeleton
import proofs.«117531_j30562987278743_2_alg».proof.Proof.Gen.KernelIdeal.Launch
import proofs.«117531_j30562987278743_2_alg».proof.Proof.Gen.KernelIdeal.Points
import proofs.«117531_j30562987278743_2_alg».proof.Proof.Gen.KernelIdeal.Frame
import proofs.«117531_j30562987278743_2_alg».proof.Proof.Gen.ReferenceIdeal
import proofs.«117531_j30562987278743_2_alg».proof.Proof.Gen.Pre_finite_inputs
import proofs.«117531_j30562987278743_2_alg».proof.Proof.Gen.KernelIdeal.Value
import proofs.«117531_j30562987278743_2_alg».proof.Proof.Gen.ReferenceIdeal.Run
import proofs.«117531_j30562987278743_2_alg».proof.Proof.Gen.ReferenceIdeal.Read
import proofs.«117531_j30562987278743_2_alg».proof.Proof.KernelLayer
import proofs.«117531_j30562987278743_2_alg».proof.Proof.RefLayer
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is five host operations: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the four arguments, the grid's output array and the reference's result are both the
    masked linear layer of those arguments. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
